-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x1024x1024 : Shape := ⟨4, ![64, 1, 1024, 1024]⟩
abbrev S64x1x1x1024 : Shape := ⟨4, ![64, 1, 1, 1024]⟩
abbrev S_ : Shape := ⟨0, ![]⟩

class Facts : Prop where
  bcast_S_S64x1x1024x1024 : S_.BroadcastsInDim S64x1x1024x1024 (![] : Fin 0 → Fin S64x1x1024x1024.rank)
  reducesTo_S64x1x1024x1024_S_d0_1_2_3 : S64x1x1024x1024.ReducesTo [0, 1, 2, 3] S_
  h_S_ : 0 < S_.numel
  bcast_S_S64x1x1x1024 : S_.BroadcastsInDim S64x1x1x1024 (![] : Fin 0 → Fin S64x1x1x1024.rank)
  reducesTo_S64x1x1x1024_S_d0_1_2_3 : S64x1x1x1024.ReducesTo [0, 1, 2, 3] S_

variable [Facts]

def fn_part1 {F : FTy → Type} [FloatOps F] (main_v13 : IVec S_ 1) (main_v16 : IVec S64x1x1x1024 1) : IVec S_ 1 :=
  let main_c_5 : IVec S_ 1 := constantI S_ 1 1#1
  let main_v17 : IVec S_ 1 := (fun x v => Host.reduce IntOp.andi x v reducesTo_S64x1x1x1024_S_d0_1_2_3 h_S_) main_v16 main_c_5
  let main_v18 : IVec S_ 1 := andi main_v13 main_v17
  main_v18

def fn {F : FTy → Type} [FloatOps F] (main_arg0 : FVec F S64x1x1024x1024 .f32) (main_arg1 : FVec F S64x1x1x1024 .f32) (main_arg2 : FVec F S64x1x1x1024 .f32) (main_arg3 : FVec F S64x1x1x1024 .f32) : IVec S_ 1 :=
  let main_v0 : FVec F S64x1x1024x1024 .f32 := Host.absf main_arg0
  let main_cst : FVec F S_ .f32 := constant S_ .f32 0x7F800000#32
  let main_v1 : FVec F S64x1x1024x1024 .f32 := broadcastInDim S64x1x1024x1024 ![] bcast_S_S64x1x1024x1024 main_cst
  let main_v2 : IVec S64x1x1024x1024 1 := cmpf .olt main_v0 main_v1
  let main_c : IVec S_ 1 := constantI S_ 1 1#1
  let main_v3 : IVec S_ 1 := (fun x v => Host.reduce IntOp.andi x v reducesTo_S64x1x1024x1024_S_d0_1_2_3 h_S_) main_v2 main_c
  let main_v4 : FVec F S64x1x1x1024 .f32 := Host.absf main_arg1
  let main_cst_0 : FVec F S_ .f32 := constant S_ .f32 0x7F800000#32
  let main_v5 : FVec F S64x1x1x1024 .f32 := broadcastInDim S64x1x1x1024 ![] bcast_S_S64x1x1x1024 main_cst_0
  let main_v6 : IVec S64x1x1x1024 1 := cmpf .olt main_v4 main_v5
  let main_c_1 : IVec S_ 1 := constantI S_ 1 1#1
  let main_v7 : IVec S_ 1 := (fun x v => Host.reduce IntOp.andi x v reducesTo_S64x1x1x1024_S_d0_1_2_3 h_S_) main_v6 main_c_1
  let main_v8 : IVec S_ 1 := andi main_v3 main_v7
  let main_v9 : FVec F S64x1x1x1024 .f32 := Host.absf main_arg2
  let main_cst_2 : FVec F S_ .f32 := constant S_ .f32 0x7F800000#32
  let main_v10 : FVec F S64x1x1x1024 .f32 := broadcastInDim S64x1x1x1024 ![] bcast_S_S64x1x1x1024 main_cst_2
  let main_v11 : IVec S64x1x1x1024 1 := cmpf .olt main_v9 main_v10
  let main_c_3 : IVec S_ 1 := constantI S_ 1 1#1
  let main_v12 : IVec S_ 1 := (fun x v => Host.reduce IntOp.andi x v reducesTo_S64x1x1x1024_S_d0_1_2_3 h_S_) main_v11 main_c_3
  let main_v13 : IVec S_ 1 := andi main_v8 main_v12
  let main_v14 : FVec F S64x1x1x1024 .f32 := Host.absf main_arg3
  let main_cst_4 : FVec F S_ .f32 := constant S_ .f32 0x7F800000#32
  let main_v15 : FVec F S64x1x1x1024 .f32 := broadcastInDim S64x1x1x1024 ![] bcast_S_S64x1x1x1024 main_cst_4
  let main_v16 : IVec S64x1x1x1024 1 := cmpf .olt main_v14 main_v15
  fn_part1 (F := F) main_v13 main_v16
-- ==== Kernel.lean ====
abbrev S64x1x1024x1024 : Shape := ⟨4, ![64, 1, 1024, 1024]⟩
abbrev S64x1x1x1024 : Shape := ⟨4, ![64, 1, 1, 1024]⟩
abbrev S8x1x256x1024 : Shape := ⟨4, ![8, 1, 256, 1024]⟩
abbrev S8x1x1x1024 : Shape := ⟨4, ![8, 1, 1, 1024]⟩
abbrev S8x1x1024 : Shape := ⟨3, ![8, 1, 1024]⟩
abbrev S8x256x1024 : Shape := ⟨3, ![8, 256, 1024]⟩

abbrev nBuf : Space → Nat
  | .hbm => 5
  | .vmem => 10
  | .smem => 0
  | _ => 0

abbrev bufTy : (tb : Table) → Fin (tcTables nBuf tb) → BufTy
  | .hbm, ⟨0, _⟩ => ⟨S64x1x1024x1024, .f32⟩
  | .hbm, ⟨1, _⟩ => ⟨S64x1x1x1024, .f32⟩
  | .hbm, ⟨2, _⟩ => ⟨S64x1x1x1024, .f32⟩
  | .hbm, ⟨3, _⟩ => ⟨S64x1x1x1024, .f32⟩
  | .hbm, ⟨4, _⟩ => ⟨S64x1x1024x1024, .f32⟩
  | .local _ .vmem, ⟨0, _⟩ => ⟨S8x1x256x1024, .f32⟩
  | .local _ .vmem, ⟨1, _⟩ => ⟨S8x1x256x1024, .f32⟩
  | .local _ .vmem, ⟨2, _⟩ => ⟨S8x1x1x1024, .f32⟩
  | .local _ .vmem, ⟨3, _⟩ => ⟨S8x1x1x1024, .f32⟩
  | .local _ .vmem, ⟨4, _⟩ => ⟨S8x1x1x1024, .f32⟩
  | .local _ .vmem, ⟨5, _⟩ => ⟨S8x1x1x1024, .f32⟩
  | .local _ .vmem, ⟨6, _⟩ => ⟨S8x1x1x1024, .f32⟩
  | .local _ .vmem, ⟨7, _⟩ => ⟨S8x1x1x1024, .f32⟩
  | .local _ .vmem, ⟨8, _⟩ => ⟨S8x1x256x1024, .f32⟩
  | .local _ .vmem, ⟨9, _⟩ => ⟨S8x1x256x1024, .f32⟩
  | _, _ => ⟨S64x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S8x1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S8x1x1x1024_S8x1x1x1024_0_0_0_0 : ∀ a, (![0, 0, 0, 0] : Fin 4 → Nat) a + S8x1x1x1024.size a ≤ S8x1x1x1024.size a
  h_S8x1x1x1024 : 0 < S8x1x1x1024.numel
  shapeCasts_S8x1x1x1024_S8x1x1024 : S8x1x1x1024.ShapeCasts S8x1x1024
  inb_S8x1x256x1024_S8x1x256x1024_0_0_0_0 : ∀ a, (![0, 0, 0, 0] : Fin 4 → Nat) a + S8x1x256x1024.size a ≤ S8x1x256x1024.size a
  h_S8x1x256x1024 : 0 < S8x1x256x1024.numel
  shapeCasts_S8x1x256x1024_S8x256x1024 : S8x1x256x1024.ShapeCasts S8x256x1024
  broadcasts_S8x1x1024_S8x256x1024 : S8x1x1024.Broadcasts S8x256x1024
  shapeCasts_S8x256x1024_S8x1x256x1024 : S8x256x1024.ShapeCasts S8x1x256x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1x256x1024.size a ≤ S64x1x1024x1024.size a
  hwx0_0 : ∀ i : grid0.Coords, EltTy.bits .f32 = 32 ∨ (Rect.block (s := S64x1x1024x1024) S8x1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1x1x1024.size a ≤ S64x1x1x1024.size a
  hwx0_1 : ∀ i : grid0.Coords, EltTy.bits .f32 = 32 ∨ (Rect.block (s := S64x1x1x1024) S8x1x1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1x1x1024.size a ≤ S64x1x1x1024.size a
  hwx0_2 : ∀ i : grid0.Coords, EltTy.bits .f32 = 32 ∨ (Rect.block (s := S64x1x1x1024) S8x1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1x1x1024.size a ≤ S64x1x1x1024.size a
  hwx0_3 : ∀ i : grid0.Coords, EltTy.bits .f32 = 32 ∨ (Rect.block (s := S64x1x1x1024) S8x1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1x256x1024.size a ≤ S64x1x1024x1024.size a
  hwx0_4 : ∀ i : grid0.Coords, EltTy.bits .f32 = 32 ∨ (Rect.block (s := S64x1x1024x1024) S8x1x256x1024.size (cc0_transform_4 i) (hinb0_4 i)).WholeWords (EltTy.packing .f32)

variable [Facts₀]

abbrev win0_0 : Pipeline.Window sig grid0 :=
  Pipeline.Window.ofSpec (Memref.whole main_arg0) S8x1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S8x1x256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x1x1024x1024 : Shape := ⟨4, ![64, 1, 1024, 1024]⟩
abbrev S64x1x1x1024 : Shape := ⟨4, ![64, 1, 1, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S64x1x1024x1024, .f32⟩
  | .hbm, ⟨1, _⟩ => ⟨S64x1x1x1024, .f32⟩
  | .hbm, ⟨2, _⟩ => ⟨S64x1x1x1024, .f32⟩
  | .hbm, ⟨3, _⟩ => ⟨S64x1x1x1024, .f32⟩
  | .hbm, ⟨4, _⟩ => ⟨S64x1x1x1024, .f32⟩
  | .hbm, ⟨5, _⟩ => ⟨S64x1x1x1024, .f32⟩
  | .hbm, ⟨6, _⟩ => ⟨S_, .f32⟩
  | .hbm, ⟨7, _⟩ => ⟨S64x1x1x1024, .f32⟩
  | .hbm, ⟨8, _⟩ => ⟨S64x1x1x1024, .f32⟩
  | .hbm, ⟨9, _⟩ => ⟨S64x1x1024x1024, .f32⟩
  | .hbm, ⟨10, _⟩ => ⟨S64x1x1024x1024, .f32⟩
  | .hbm, ⟨11, _⟩ => ⟨S64x1x1024x1024, .f32⟩
  | .hbm, ⟨12, _⟩ => ⟨S64x1x1024x1024, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S64x1x1024x1024, .f32⟩
  | .hbm, ⟨17, _⟩ => ⟨S64x1x1024x1024, .f32⟩
  | .hbm, ⟨18, _⟩ => ⟨S_, .f32⟩
  | .hbm, ⟨19, _⟩ => ⟨S64x1x1024x1024, .f32⟩
  | .hbm, ⟨20, _⟩ => ⟨S64x1x1024x1024, .f32⟩
  | _, _ => ⟨S64x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v8 : Ref sig .tc := ⟨.hbm, 20, rfl⟩

abbrev nD : Nat := 1
abbrev τ : Topo := Topo.v7x

variable {F : FTy → Type} [FloatOps F]

class Facts₀ : Prop where
  bcast_S_S64x1x1x1024 : S_.BroadcastsInDim S64x1x1x1024 (![] : Fin 0 → Fin S64x1x1x1024.rank)
  bcast_S64x1x1x1024_S64x1x1024x1024_0_1_2_3 : S64x1x1x1024.BroadcastsInDim S64x1x1024x1024 (![0, 1, 2, 3] : Fin 4 → Fin S64x1x1024x1024.rank)
  bcast_S_S64x1x1024x1024 : S_.BroadcastsInDim S64x1x1024x1024 (![] : Fin 0 → Fin S64x1x1024x1024.rank)

variable [Facts₀]

class Facts : Prop extends Facts₀ where

variable [Facts]
-- ==== Proof.ColumnNoise.lean ====
/-
  Column noise on a batch of single-channel images, clipped to the unit interval.

  The data: an image array `img` of shape [64, 1, 1024, 1024] (sample, channel, row, column) and three noise arrays
  `a1`, `a2`, `a3` of shape [64, 1, 1, 1024] — one entry per sample and per image COLUMN. The result has the image's
  shape, and at the pixel (b, 0, h, w) it is

      min (1, max (0, a1[b,0,0,w] + ((a2[b,0,0,w] + a3[b,0,0,w] · a3[b,0,0,w]) + 1) · img[b,0,h,w])).

  The noise a pixel meets depends on its sample and its column only (`rowOf`): all 1024 rows of one image meet the same
  noise row. Nothing here is particular to one reading of the floats: the formula is a fixed tree of additions,
  products, a maximum and a minimum, so it is stated over any float operations `F`; the two constants are the words of
  `1.0` and `0.0`, kept as words.
-/
import Idealize.ShloMosaic.PureOps.Vector

noncomputable section

namespace Cert.ColumnNoise

open Idealize.ShloMosaic

variable {F : FTy → Type} [FloatOps F]

/-- The images: 64 samples, one channel, 1024 rows, 1024 columns. -/
abbrev Img : Shape := ⟨4, ![64, 1, 1024, 1024]⟩
/-- A noise array: per sample one row of 1024 entries, one per image column. -/
abbrev Row : Shape := ⟨4, ![64, 1, 1, 1024]⟩

/-- The noise entry a pixel meets: its own sample's, at its own column — whatever its row. -/
abbrev rowOf (i : Img.Idx) : Row.Idx := fun a => match a with
  | ⟨0, _⟩ => ⟨(i 0).val, (i 0).isLt⟩
  | ⟨1, _⟩ => ⟨0, Nat.one_pos⟩
  | ⟨2, _⟩ => ⟨0, Nat.one_pos⟩
  | ⟨3, _⟩ => ⟨(i 3).val, (i 3).isLt⟩

/-- One pixel of the result from the pixel `p` of the image and the three noise entries `n1 n2 n3` it meets:
    `min (1, max (0, n1 + ((n2 + n3 · n3) + 1) · p))`, the operations nested exactly in this order. -/
def pixel (p n1 n2 n3 : F .f32) : F .f32 :=
  FloatOps.minimumf (FloatOps.ofBits .f32 0x3F800000#32) (FloatOps.maximumf (FloatOps.ofBits .f32 0x00000000#32)
    (FloatOps.addf n1 (FloatOps.mulf (FloatOps.addf (FloatOps.addf n2 (FloatOps.mulf n3 n3)) (FloatOps.ofBits .f32 0x3F800000#32)) p)))

/-- The whole result array as ONE function of the four argument arrays, pixel by pixel. -/
def noisy (img : Img.Idx → F .f32) (a1 a2 a3 : Row.Idx → F .f32) : Img.Idx → F .f32 := fun i =>
  pixel (img i) (a1 (rowOf i)) (a2 (rowOf i)) (a3 (rowOf i))

theorem noisy_apply (img : Img.Idx → F .f32) (a1 a2 a3 : Row.Idx → F .f32) (i : Img.Idx) :
    noisy img a1 a2 a3 i = pixel (img i) (a1 (rowOf i)) (a2 (rowOf i)) (a3 (rowOf i)) := rfl

end Cert.ColumnNoise

end
-- ==== Proof.KernelBlock.lean ====
/-
  What one grid point of the kernel leaves in its output block.

  At a grid point the kernel body holds a block of 8 samples × 256 rows of the image (shape [8, 1, 256, 1024]) and the
  8 matching noise rows of each of `a1`, `a2`, `a3` (shape [8, 1, 1, 1024]). It drops the channel axis, forms
  `(a2 + a3 · a3) + 1` on the noise rows, repeats that row and the row of `a1` down the 256 image rows, multiplies by the
  image block, adds, takes the maximum with 0 and the minimum with 1, puts the channel axis back and stores the block
  whole. Dropping and restoring a unit axis and repeating a row move values without changing them, so the block left
  behind is, at the block pixel `y` = (b, 0, h, w), `ColumnNoise.pixel` of the image block's pixel `y` and of the three
  noise blocks' entries at (b, 0, 0, w) — `rowIn y`, the block's own version of "same sample, same column".
-/
import proofs.«126063_j43868795961991_2_alg».proof.Proof.Gen.KernelIdeal.Value
import proofs.«126063_j43868795961991_2_alg».proof.Proof.ColumnNoise

noncomputable section

namespace Cert.KernelIdeal.Noisy

open Cert.KernelIdeal Cert.KernelIdeal.Gen Cert.ColumnNoise Idealize.ShloMosaic

variable {F : FTy → Type} [FloatOps F]

/-- The body reads and writes its buffers whole: through the rectangle at offsets zero. -/
theorem offsets_zero : (![0, 0, 0, 0] : Fin 4 → Nat) = fun _ => 0 := funext fun a => by fin_cases a <;> rfl

/-- The noise entry a block pixel meets: its own sample's (within the block), at its own column. -/
abbrev rowIn (y : S8x1x256x1024.Idx) : S8x1x1x1024.Idx := fun a => match a with
  | ⟨0, _⟩ => ⟨(y 0).val, (y 0).isLt⟩
  | ⟨1, _⟩ => ⟨0, Nat.one_pos⟩
  | ⟨2, _⟩ => ⟨0, Nat.one_pos⟩
  | ⟨3, _⟩ => ⟨(y 3).val, (y 3).isLt⟩

/-- Each of the four places the body reads a noise block for the block pixel `y` is `rowIn y`. -/
theorem noise_read0 (y : S8x1x256x1024.Idx) : Value.ix4_0 y = rowIn y := by
  funext a
  match a with
  | ⟨0, _⟩ => rfl
  | ⟨1, _⟩ => rfl
  | ⟨2, _⟩ => rfl
  | ⟨3, _⟩ => rfl
theorem noise_read1 (y : S8x1x256x1024.Idx) : Value.ix4_1 y = rowIn y := by
  funext a
  match a with
  | ⟨0, _⟩ => rfl
  | ⟨1, _⟩ => rfl
  | ⟨2, _⟩ => rfl
  | ⟨3, _⟩ => rfl
theorem noise_read2 (y : S8x1x256x1024.Idx) : Value.ix4_2 y = rowIn y := by
  funext a
  match a with
  | ⟨0, _⟩ => rfl
  | ⟨1, _⟩ => rfl
  | ⟨2, _⟩ => rfl
  | ⟨3, _⟩ => rfl
theorem noise_read3 (y : S8x1x256x1024.Idx) : Value.ix4_3 y = rowIn y := by
  funext a
  match a with
  | ⟨0, _⟩ => rfl
  | ⟨1, _⟩ => rfl
  | ⟨2, _⟩ => rfl
  | ⟨3, _⟩ => rfl

/-- The image block is read at the block pixel itself: the channel coordinate of a one-channel block is 0. -/
theorem image_read (y : S8x1x256x1024.Idx) : Value.ix4_4 y = y := by
  funext a
  apply Fin.ext
  match a with
  | ⟨0, _⟩ => rfl
  | ⟨1, _⟩ => show 0 = (y 1).val; have h : (y 1).val < 1 := (y 1).isLt; omega
  | ⟨2, _⟩ => rfl
  | ⟨3, _⟩ => rfl

/-- WHAT THE BODY LEAVES in the output block, from the image block `x0` and the noise blocks `x1 x2 x3` (of `a1 a2 a3`),
    at the block pixel `y`: the clipped column noise of that pixel. -/
theorem body_apply (x0 : Vec F S8x1x256x1024 .f32) (x1 x2 x3 : Vec F S8x1x1x1024 .f32) (y : S8x1x256x1024.Idx) :
    out0_4 x0 x1 x2 x3 y = pixel (x0 y) (x1 (rowIn y)) (x2 (rowIn y)) (x3 (rowIn y)) := by
  unfold out0_4
  refine (Value.canon4_eq (View.ld x1 r0_0) (View.ld x2 r0_0) (View.ld x3 r0_0) (View.ld x0 r0_1) y).trans ?_
  rw [View.ld_unit_zero (S := S8x1x1x1024) offsets_zero, View.ld_unit_zero (S := S8x1x1x1024) offsets_zero,
    View.ld_unit_zero (S := S8x1x1x1024) offsets_zero, View.ld_unit_zero (S := S8x1x256x1024) offsets_zero]
  show FloatOps.minimumf _ (FloatOps.maximumf _ (FloatOps.addf (x1 (Value.ix4_0 y)) (FloatOps.mulf (FloatOps.addf
    (FloatOps.addf (x2 (Value.ix4_1 y)) (FloatOps.mulf (x3 (Value.ix4_2 y)) (x3 (Value.ix4_3 y)))) _) (x0 (Value.ix4_4 y))))) = _
  rw [noise_read0, noise_read1, noise_read2, noise_read3, image_read]
  rfl

end Cert.KernelIdeal.Noisy

end
-- ==== Proof.KernelArray.lean ====
/-
  From the kernel's blocks to its whole result array.

  The kernel runs on a grid of 8 × 4 points. Point (p, q) works on samples 8p … 8p + 7 and image rows 256q … 256q + 255:
  its image block and its output block sit at block index (p, 0, q, 0) of the [64, 1, 1024, 1024] arrays, in blocks of
  [8, 1, 256, 1024], and its three noise blocks at block index (p, 0, 0, 0) of the [64, 1, 1, 1024] arrays, in blocks of
  [8, 1, 1, 1024] — the same 8 samples, whatever q is. An element of a block sits in its array at (block index × block
  size + position inside the block) on every axis. So the noise entry a block pixel meets inside its noise block
  (`rowIn`) is, in the whole array, the noise entry the same pixel meets as a pixel of the whole image (`rowOf`); and
  what a point writes back is its block of ONE array, `ColumnNoise.noisy` of the four argument arrays (`written_eq`).
  The 32 output blocks tile the image array — pixel (b, 0, h, w) lies in the block of point (b / 8, h / 256) — so after
  the run the result array is that function everywhere (`result_eq`, `run`).
-/
import proofs.«126063_j43868795961991_2_alg».proof.Proof.KernelBlock
import Idealize.ShloMosaic.Lib.Pipeline.Value

noncomputable section

namespace Cert.KernelIdeal.Noisy

open Cert.KernelIdeal Cert.KernelIdeal.Gen Cert.ColumnNoise Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The block indices at every one of the 32 grid points: the image block sits where the output block sits; each noise
    block follows the output block on the sample axis and is at 0 on the others; the output block's channel and column
    block indices are 0. -/
theorem block_indices : ∀ t : Fin cfg0.N,
    win0_0.index t (0 : Fin 4) = win0_4.index t (0 : Fin 4) ∧ win0_0.index t (1 : Fin 4) = win0_4.index t (1 : Fin 4)
    ∧ win0_0.index t (2 : Fin 4) = win0_4.index t (2 : Fin 4) ∧ win0_0.index t (3 : Fin 4) = win0_4.index t (3 : Fin 4)
    ∧ win0_1.index t (0 : Fin 4) = win0_4.index t (0 : Fin 4) ∧ win0_1.index t (1 : Fin 4) = 0
    ∧ win0_1.index t (2 : Fin 4) = 0 ∧ win0_1.index t (3 : Fin 4) = 0
    ∧ win0_2.index t (0 : Fin 4) = win0_4.index t (0 : Fin 4) ∧ win0_2.index t (1 : Fin 4) = 0
    ∧ win0_2.index t (2 : Fin 4) = 0 ∧ win0_2.index t (3 : Fin 4) = 0
    ∧ win0_3.index t (0 : Fin 4) = win0_4.index t (0 : Fin 4) ∧ win0_3.index t (1 : Fin 4) = 0
    ∧ win0_3.index t (2 : Fin 4) = 0 ∧ win0_3.index t (3 : Fin 4) = 0
    ∧ win0_4.index t (1 : Fin 4) = 0 ∧ win0_4.index t (3 : Fin 4) = 0 :=
  (by decide +kernel : ∀ t : Fin grid0.N, _)

/-- Every block of the image array — 8 blocks of samples, 4 blocks of rows — is some grid point's output block. -/
theorem block_onto : ∀ (p : Fin 8) (q : Fin 4), ∃ t : Fin cfg0.N, win0_4.index t = ![p.val, 0, q.val, 0] :=
  (by decide +kernel : ∀ (p : Fin 8) (q : Fin 4), ∃ t : Fin grid0.N, win0_4.index t = ![p.val, 0, q.val, 0])

/-- WHAT POINT `t` WRITES BACK is block `t` of `noisy` of the four argument arrays: the body leaves the clipped column
    noise of its blocks (`body_apply`), the image block's pixel is the array's pixel under the output block, and the
    noise blocks' entry `rowIn y` is the arrays' entry `rowOf` of that pixel. -/
theorem written_eq (c : Dev nD) (t : Fin cfg0.N) :
    (dats m 0 c).flushed 4 t = ((cfg0.win 4).blk t).view.read (Elt F)
      (noisy (V m c main_arg0) (V m c main_arg1) (V m c main_arg2) (V m c main_arg3)) := by
  rw [Value.flushed4]
  obtain ⟨a0, a1, a2, a3, b0, b1, b2, b3, c0, c1, c2, c3, d0, d1, d2, d3, o1, o3⟩ := block_indices t
  funext y
  show out0_4 (iblk m c 0 t) (iblk m c 1 t) (iblk m c 2 t) (iblk m c 3 t) y
    = noisy (V m c main_arg0) (V m c main_arg1) (V m c main_arg2) (V m c main_arg3) (((cfg0.win 4).blk t).view.emb y)
  refine (body_apply (iblk m c 0 t) (iblk m c 1 t) (iblk m c 2 t) (iblk m c 3 t) y).trans ?_
  rw [noisy_apply]
  show pixel (V m c main_arg0 (((cfg0.win 0).blk t).view.emb y)) (V m c main_arg1 (((cfg0.win 1).blk t).view.emb (rowIn y)))
      (V m c main_arg2 (((cfg0.win 2).blk t).view.emb (rowIn y))) (V m c main_arg3 (((cfg0.win 3).blk t).view.emb (rowIn y)))
    = pixel (V m c main_arg0 (((cfg0.win 4).blk t).view.emb y)) (V m c main_arg1 (rowOf (((cfg0.win 4).blk t).view.emb y)))
      (V m c main_arg2 (rowOf (((cfg0.win 4).blk t).view.emb y))) (V m c main_arg3 (rowOf (((cfg0.win 4).blk t).view.emb y)))
  have himg : ((cfg0.win 0).blk t).view.emb y = ((cfg0.win 4).blk t).view.emb y := by
    funext a; apply Fin.ext
    match a with
    | ⟨0, _⟩ => show win0_0.index t (0 : Fin 4) * 8 + 1 * (y 0).val = win0_4.index t (0 : Fin 4) * 8 + 1 * (y 0).val; omega
    | ⟨1, _⟩ => show win0_0.index t (1 : Fin 4) * 1 + 1 * (y 1).val = win0_4.index t (1 : Fin 4) * 1 + 1 * (y 1).val; omega
    | ⟨2, _⟩ => show win0_0.index t (2 : Fin 4) * 256 + 1 * (y 2).val = win0_4.index t (2 : Fin 4) * 256 + 1 * (y 2).val; omega
    | ⟨3, _⟩ => show win0_0.index t (3 : Fin 4) * 1024 + 1 * (y 3).val = win0_4.index t (3 : Fin 4) * 1024 + 1 * (y 3).val; omega
  have hn1 : ((cfg0.win 1).blk t).view.emb (rowIn y) = rowOf (((cfg0.win 4).blk t).view.emb y) := by
    funext a; apply Fin.ext
    match a with
    | ⟨0, _⟩ => show win0_1.index t (0 : Fin 4) * 8 + 1 * (y 0).val = win0_4.index t (0 : Fin 4) * 8 + 1 * (y 0).val; omega
    | ⟨1, _⟩ => show win0_1.index t (1 : Fin 4) * 1 + 1 * 0 = 0; omega
    | ⟨2, _⟩ => show win0_1.index t (2 : Fin 4) * 1 + 1 * 0 = 0; omega
    | ⟨3, _⟩ => show win0_1.index t (3 : Fin 4) * 1024 + 1 * (y 3).val = win0_4.index t (3 : Fin 4) * 1024 + 1 * (y 3).val; omega
  have hn2 : ((cfg0.win 2).blk t).view.emb (rowIn y) = rowOf (((cfg0.win 4).blk t).view.emb y) := by
    funext a; apply Fin.ext
    match a with
    | ⟨0, _⟩ => show win0_2.index t (0 : Fin 4) * 8 + 1 * (y 0).val = win0_4.index t (0 : Fin 4) * 8 + 1 * (y 0).val; omega
    | ⟨1, _⟩ => show win0_2.index t (1 : Fin 4) * 1 + 1 * 0 = 0; omega
    | ⟨2, _⟩ => show win0_2.index t (2 : Fin 4) * 1 + 1 * 0 = 0; omega
    | ⟨3, _⟩ => show win0_2.index t (3 : Fin 4) * 1024 + 1 * (y 3).val = win0_4.index t (3 : Fin 4) * 1024 + 1 * (y 3).val; omega
  have hn3 : ((cfg0.win 3).blk t).view.emb (rowIn y) = rowOf (((cfg0.win 4).blk t).view.emb y) := by
    funext a; apply Fin.ext
    match a with
    | ⟨0, _⟩ => show win0_3.index t (0 : Fin 4) * 8 + 1 * (y 0).val = win0_4.index t (0 : Fin 4) * 8 + 1 * (y 0).val; omega
    | ⟨1, _⟩ => show win0_3.index t (1 : Fin 4) * 1 + 1 * 0 = 0; omega
    | ⟨2, _⟩ => show win0_3.index t (2 : Fin 4) * 1 + 1 * 0 = 0; omega
    | ⟨3, _⟩ => show win0_3.index t (3 : Fin 4) * 1024 + 1 * (y 3).val = win0_4.index t (3 : Fin 4) * 1024 + 1 * (y 3).val; omega
  rw [himg, hn1, hn2, hn3]

/-- A pixel of the image array is in point `t`'s output block iff each of its coordinates is in the block's range. -/
theorem mem_block (t : Fin cfg0.N) (i : S64x1x1024x1024.Idx) :
    i ∈ ((cfg0.win 4).blk t).view.set ↔ ∀ a : Fin 4, win0_4.index t a * S8x1x256x1024.size a ≤ (i a).val
      ∧ (i a).val < win0_4.index t a * S8x1x256x1024.size a + S8x1x256x1024.size a := by
  show i ∈ ((View.whole main_v0).slice (win0_4.rect t)).set ↔ _
  rw [View.set_slice_whole, Rect.mem_set_unit]
  exact Iff.rfl

/-- The output blocks tile the image array: pixel (b, 0, h, w) is in the block of the point at block index
    (b / 8, 0, h / 256, 0), and every point writes its block back. -/
theorem covered (i : S64x1x1024x1024.Idx) :
    ∃ t : Fin cfg0.N, (cfg0.win 4).flush t = true ∧ i ∈ ((cfg0.win 4).blk t).view.set := by
  have hi0 : (i 0).val < 64 := (i 0).isLt
  have hi1 : (i 1).val < 1 := (i 1).isLt
  have hi2 : (i 2).val < 1024 := (i 2).isLt
  have hi3 : (i 3).val < 1024 := (i 3).isLt
  obtain ⟨t, ht⟩ := block_onto ⟨(i 0).val / 8, by omega⟩ ⟨(i 2).val / 256, by omega⟩
  have q0 : win0_4.index t (0 : Fin 4) = (i 0).val / 8 := congrFun ht 0
  have q1 : win0_4.index t (1 : Fin 4) = 0 := congrFun ht 1
  have q2 : win0_4.index t (2 : Fin 4) = (i 2).val / 256 := congrFun ht 2
  have q3 : win0_4.index t (3 : Fin 4) = 0 := congrFun ht 3
  refine ⟨t, flush0_4 t, ?_⟩
  rw [mem_block]
  intro a
  match a with
  | ⟨0, _⟩ => show win0_4.index t (0 : Fin 4) * 8 ≤ (i 0).val ∧ (i 0).val < win0_4.index t (0 : Fin 4) * 8 + 8; omega
  | ⟨1, _⟩ => show win0_4.index t (1 : Fin 4) * 1 ≤ (i 1).val ∧ (i 1).val < win0_4.index t (1 : Fin 4) * 1 + 1; omega
  | ⟨2, _⟩ => show win0_4.index t (2 : Fin 4) * 256 ≤ (i 2).val ∧ (i 2).val < win0_4.index t (2 : Fin 4) * 256 + 256; omega
  | ⟨3, _⟩ => show win0_4.index t (3 : Fin 4) * 1024 ≤ (i 3).val ∧ (i 3).val < win0_4.index t (3 : Fin 4) * 1024 + 1024; omega

/-- THE RESULT ARRAY after the run is the clipped column noise of the four argument arrays as launched. -/
theorem result_eq (c : Dev nD) : (dats m 0 c).arrAt 4 cfg0.N
    = noisy (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => written_eq m c t) covered

/-- The kernel's run, read: every weakly fair execution ends with the result array at `noisy` of the arguments and the
    arguments unchanged. -/
theorem run : θ_run defs (onTc (τ := τ) (main (F := F))) ⟨m, fun _ => 0, ρ⟩ fun r => ∀ c : Dev nD,
      r.2.mem ((c : Thread nD τ).loc main_v0)
        = noisy (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result_eq m c), (h c).2⟩) (Value.run_blocks m ρ)

end Cert.KernelIdeal.Noisy

end
-- ==== Proof.ReferenceNoisy.lean ====
/-
  The reference computes the clipped column noise.

  The reference forms, on whole arrays, `a3 · a3`, adds `a2`, adds the constant 1 broadcast to the noise shape, stretches
  that noise array along the image's rows (a broadcast that keeps every axis and repeats the one row 1024 times),
  multiplies by the image, adds `a1` stretched the same way, and clips: a maximum with 0 and then a minimum with 1, both
  constants broadcast from scalars. Read at one pixel `i`, every one of these steps reads its operands at `i` itself or —
  through the two stretches — at the noise entry of `i`'s sample and column, which is `rowOf i`. So the array it ends
  with is `ColumnNoise.noisy` of its four arguments, pixel by pixel, with the operations nested in the same order.
-/
import proofs.«126063_j43868795961991_2_alg».proof.Proof.Gen.ReferenceIdeal.Read
import proofs.«126063_j43868795961991_2_alg».proof.Proof.ColumnNoise

noncomputable section

namespace Cert.ReferenceIdeal.Noisy

open Cert.ReferenceIdeal Cert.ReferenceIdeal.Read Cert.ColumnNoise Idealize.ShloMosaic

variable {F : FTy → Type} [FloatOps F]

/-- Where the stretched coefficient array `(a2 + a3 · a3) + 1` is read for pixel `i`: at `i`'s sample and column. -/
theorem coeff_row (i : S64x1x1024x1024.Idx) : idx_main_v4 i = rowOf i := by
  funext a
  match a with
  | ⟨0, _⟩ => rfl
  | ⟨1, _⟩ => rfl
  | ⟨2, _⟩ => rfl
  | ⟨3, _⟩ => rfl

/-- Where the stretched `a1` is read for pixel `i`: at the same entry. -/
theorem offset_row (i : S64x1x1024x1024.Idx) : idx_main_v6 i = rowOf i := by
  funext a
  match a with
  | ⟨0, _⟩ => rfl
  | ⟨1, _⟩ => rfl
  | ⟨2, _⟩ => rfl
  | ⟨3, _⟩ => rfl

/-- The reference's last stage is the clipped column noise of its arguments: each stage read at the pixel, the two
    stretches landing on `rowOf i`, leaves exactly `pixel` of the image's pixel and the three noise entries. -/
theorem reference_eq (x0 : (⟨S64x1x1024x1024, .f32⟩ : BufTy).Contents (Elt F))
    (x1 x2 x3 : (⟨S64x1x1x1024, .f32⟩ : BufTy).Contents (Elt F)) :
    val_main_v8 (F := F) x0 x1 x2 x3 = noisy x0 x1 x2 x3 := by
  funext i
  rw [val_main_v8_apply, val_main_call0_v4_apply, val_main_call0_v3_apply, val_main_cst_1_apply,
    val_main_call0_v2_apply, val_main_call0_v1_apply, val_main_call0_v0_apply, val_main_cst_0_apply,
    val_main_v7_apply, val_main_v6_apply, val_main_v5_apply, val_main_v4_apply, val_main_v3_apply,
    val_main_v2_apply, val_main_cst_apply, val_main_v1_apply, val_main_v0_apply, coeff_row, offset_row]
  rfl

end Cert.ReferenceIdeal.Noisy

end
-- ==== Proof.lean ====
/-
  Column noise, clipped: a tiled kernel against its whole-array reference.

  Both programs take an image array `img` of shape [64, 1, 1024, 1024] and three noise arrays `a1 a2 a3` of shape
  [64, 1, 1, 1024] (one entry per sample and per image column) and return, at the pixel (b, 0, h, w),

      min (1, max (0, a1[b,0,0,w] + ((a2[b,0,0,w] + a3[b,0,0,w] · a3[b,0,0,w]) + 1) · img[b,0,h,w])).

  The reference forms this on whole arrays, stretching the noise along the image's rows; the kernel forms it block by
  block on a grid of 8 × 4 points, 8 samples × 256 rows at a time, each point meeting the noise rows of its 8 samples.
  The two nest the additions, the products, the maximum and the minimum in the same order and use the same two constant
  words, so no law of arithmetic is needed to join them — only where each value is read from: `ColumnNoise.noisy` is the
  common function, `ReferenceNoisy` shows the reference's array is it, `KernelBlock` that a grid point leaves it on its
  block, `KernelArray` that the blocks tile the array. Since nothing is re-associated or distributed, the equality
  holds for every extended-real input, and the finiteness of the inputs is never used.

  The three frame conjuncts are the generated frame runs (the reference's is its run with the result dropped); the
  idealization rewrote no operation, so `preserves` is `True`.
-/
import proofs.«126063_j43868795961991_2_alg».proof.Defs
import proofs.«126063_j43868795961991_2_alg».proof.Proof.Gen.Kernel
import proofs.«126063_j43868795961991_2_alg».proof.Proof.Gen.Kernel.Skeleton
import proofs.«126063_j43868795961991_2_alg».proof.Proof.Gen.Kernel.Launch
import proofs.«126063_j43868795961991_2_alg».proof.Proof.Gen.Kernel.Points
import proofs.«126063_j43868795961991_2_alg».proof.Proof.Gen.Kernel.Frame
import proofs.«126063_j43868795961991_2_alg».proof.Proof.Gen.KernelIdeal
import proofs.«126063_j43868795961991_2_alg».proof.Proof.Gen.KernelIdeal.Skeleton
import proofs.«126063_j43868795961991_2_alg».proof.Proof.Gen.KernelIdeal.Launch
import proofs.«126063_j43868795961991_2_alg».proof.Proof.Gen.KernelIdeal.Points
import proofs.«126063_j43868795961991_2_alg».proof.Proof.Gen.KernelIdeal.Frame
import proofs.«126063_j43868795961991_2_alg».proof.Proof.Gen.KernelIdeal.Value
import proofs.«126063_j43868795961991_2_alg».proof.Proof.Gen.ReferenceIdeal
import proofs.«126063_j43868795961991_2_alg».proof.Proof.Gen.ReferenceIdeal.Run
import proofs.«126063_j43868795961991_2_alg».proof.Proof.Gen.ReferenceIdeal.Read
import proofs.«126063_j43868795961991_2_alg».proof.Proof.Gen.Pre_finite_inputs
import proofs.«126063_j43868795961991_2_alg».proof.Proof.KernelArray
import proofs.«126063_j43868795961991_2_alg».proof.Proof.ReferenceNoisy
import Idealize.ShloMosaic.Adequacy
import Idealize.ShloMosaic.Init

noncomputable section

namespace Cert.Proof

open Idealize.ShloMosaic Idealize.SL.Sem

/-- The kernel as printed runs to the end, faults nowhere and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals, from memories that agree on the four arguments, the kernel's result array and the
    reference's are both `ColumnNoise.noisy` of those arguments: the kernel's by its blocks (`KernelIdeal.Noisy.run`),
    the reference's stage by stage (`ReferenceIdeal.Noisy.reference_eq`). -/
theorem algebraic : Cert.algebraic_KernelIdeal_ReferenceIdeal := by
  intro m ρ m' ρ' _ hagree
  refine ⟨_, Cert.KernelIdeal.Noisy.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.Noisy.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
